-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S8x8 : Shape := ⟨2, ![8, 8]⟩
abbrev S8 : Shape := ⟨1, ![8]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S65536x1024 .f32) (main_arg1 : FVec F S8x8 .f32) (main_arg2 : FVec F S8 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S65536x1024 : Shape := ⟨2, ![65536, 1024]⟩
abbrev S8x8 : Shape := ⟨2, ![8, 8]⟩
abbrev S8 : Shape := ⟨1, ![8]⟩
abbrev S512x1024 : Shape := ⟨2, ![512, 1024]⟩
abbrev S512x8x128 : Shape := ⟨3, ![512, 8, 128]⟩
abbrev S512x8 : Shape := ⟨2, ![512, 8]⟩
abbrev S512x1x8 : Shape := ⟨3, ![512, 1, 8]⟩
abbrev S1x8x8 : Shape := ⟨3, ![1, 8, 8]⟩
abbrev S512x8x8 : Shape := ⟨3, ![512, 8, 8]⟩
abbrev S1x8 : Shape := ⟨2, ![1, 8]⟩
abbrev S512x8x1 : Shape := ⟨3, ![512, 8, 1]⟩

abbrev nBuf : Space → Nat
  | .hbm => 4
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S8x8, .f32⟩
  | .hbm, ⟨2, _⟩ => ⟨S8, .f32⟩
  | .hbm, ⟨3, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S8x8, .f32⟩
  | .local _ .vmem, ⟨3, _⟩ => ⟨S8, .f32⟩
  | .local _ .vmem, ⟨4, _⟩ => ⟨S512x1024, .f32⟩
  | .local _ .vmem, ⟨5, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  shapeCasts_S512x1024_S512x8x128 : S512x1024.ShapeCasts S512x8x128
  reduces_S512x8x128_S512x8 : S512x8x128.Reduces [2] S512x8
  inb_S8x8_S8x8_0_0 : ∀ a, (![0, 0] : Fin 2 → Nat) a + S8x8.size a ≤ S8x8.size a
  h_S8x8 : 0 < S8x8.numel
  inb_S8_S8_0 : ∀ a, (![0] : Fin 1 → Nat) a + S8.size a ≤ S8.size a
  h_S8 : 0 < S8.numel
  shapeCasts_S512x8_S512x1x8 : S512x8.ShapeCasts S512x1x8
  shapeCasts_S8x8_S1x8x8 : S8x8.ShapeCasts S1x8x8
  broadcasts_S512x1x8_S512x8x8 : S512x1x8.Broadcasts S512x8x8
  broadcasts_S1x8x8_S512x8x8 : S1x8x8.Broadcasts S512x8x8
  reduces_S512x8x8_S512x8 : S512x8x8.Reduces [2] S512x8
  shapeCasts_S8_S1x8 : S8.ShapeCasts S1x8
  broadcasts_S1x8_S512x8 : S1x8.Broadcasts S512x8
  shapeCasts_S512x8_S512x8x1 : S512x8.ShapeCasts S512x8x1
  broadcasts_S512x8x1_S512x8x128 : S512x8x1.Broadcasts S512x8x128
  shapeCasts_S512x8x128_S512x1024 : S512x8x128.ShapeCasts S512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S8x8.size a
  hwx0_1 : ∀ i : grid0.Coords, EltTy.bits .f32 = 32 ∨ (Rect.block (s := S8x8) S8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S65536x1024.size a
  hwx0_3 : ∀ i : grid0.Coords, EltTy.bits .f32 = 32 ∨ (Rect.block (s := S65536x1024) S512x1024.size (cc0_transform_3 i) (hinb0_3 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S8x8 : Shape := ⟨2, ![8, 8]⟩
abbrev S8 : Shape := ⟨1, ![8]⟩
abbrev S65536x8x128 : Shape := ⟨3, ![65536, 8, 128]⟩
abbrev S_ : Shape := ⟨0, ![]⟩
abbrev S65536x8 : Shape := ⟨2, ![65536, 8]⟩
abbrev S1x8 : Shape := ⟨2, ![1, 8]⟩
abbrev S65536x8x1 : Shape := ⟨3, ![65536, 8, 1]⟩

abbrev nBuf : Space → Nat
  | .hbm => 24
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8, .f32⟩
  | .hbm, ⟨2, _⟩ => ⟨S8, .f32⟩
  | .hbm, ⟨3, _⟩ => ⟨S65536x8x128, .f32⟩
  | .hbm, ⟨4, _⟩ => ⟨S_, .f32⟩
  | .hbm, ⟨5, _⟩ => ⟨S65536x8, .f32⟩
  | .hbm, ⟨6, _⟩ => ⟨S8x8, .f32⟩
  | .hbm, ⟨7, _⟩ => ⟨S65536x8, .f32⟩
  | .hbm, ⟨8, _⟩ => ⟨S1x8, .f32⟩
  | .hbm, ⟨9, _⟩ => ⟨S65536x8, .f32⟩
  | .hbm, ⟨10, _⟩ => ⟨S65536x8, .f32⟩
  | .hbm, ⟨11, _⟩ => ⟨S65536x8, .f32⟩
  | .hbm, ⟨12, _⟩ => ⟨S65536x8, .f32⟩
  | .hbm, ⟨13, _⟩ => ⟨S_, .f32⟩
  | .hbm, ⟨14, _⟩ => ⟨S65536x8, .f32⟩
  | .hbm, ⟨15, _⟩ => ⟨S65536x8, .f32⟩
  | .hbm, ⟨16, _⟩ => ⟨S_, .f32⟩
  | .hbm, ⟨17, _⟩ => ⟨S65536x8, .f32⟩
  | .hbm, ⟨18, _⟩ => ⟨S65536x8, .f32⟩
  | .hbm, ⟨19, _⟩ => ⟨S65536x8x1, .f32⟩
  | .hbm, ⟨20, _⟩ => ⟨S65536x8x128, .f32⟩
  | .hbm, ⟨21, _⟩ => ⟨S65536x8x128, .f32⟩
  | .hbm, ⟨22, _⟩ => ⟨S65536x1024, .f32⟩
  | .hbm, ⟨23, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S65536x1024_S65536x8x128 : S65536x1024.ShapeCasts S65536x8x128
  reducesTo_S65536x8x128_S65536x8_d2 : S65536x8x128.ReducesTo [2] S65536x8
  h_S_ : 0 < S_.numel
  transposes_S8x8_S8x8_1_0 : S8x8.Transposes [1, 0] S8x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  bcast_S65536x8x1_S65536x8x128_0_1_2 : S65536x8x1.BroadcastsInDim S65536x8x128 (![0, 1, 2] : Fin 3 → Fin S65536x8x128.rank)
  shapeCasts_S65536x8x128_S65536x1024 : S65536x8x128.ShapeCasts S65536x1024
  dot_S65536x8_S8x8_S65536x8_1_0_0_1_n_n_wf : DotDims.WF S65536x8 S8x8 S65536x8 [1] [0] [0] [1] [] []

variable [Facts₀]

def dot_S65536x8_S8x8_S65536x8_1_0_0_1_n_n : DotDims S65536x8 S8x8 S65536x8 where
  lhsContracting := [1]
  rhsContracting := [0]
  lhsNonContracting := [0]
  rhsNonContracting := [1]
  lhsBatch := []
  rhsBatch := []
  wf := dot_S65536x8_S8x8_S65536x8_1_0_0_1_n_n_wf

class Facts : Prop extends Facts₀ where

variable [Facts]
-- ==== Proof.SegmentGate.lean ====
/-
  The function both programs compute, stated once over literal shapes and free of either program.

  A row of 1024 entries is eight segments of 128 lanes.  Each segment is pooled to its maximum (the fold of
  `max` from -∞ over its 128 lanes), the eight maxima go through an 8×8 affine map (row `s` of the weight
  matrix dotted with the maxima, plus bias `s`), the logistic function turns each of the eight results into a
  gate in [0, 1], and every entry of the row is replaced by itself plus itself times the gate of its segment.
  Rows do not interact, so the whole-array function is the row function applied to each row.
-/
import Idealize.ShloMosaic.PureOps.Ideal
import Idealize.ShloMosaic.PureOps.Ideal.Laws
import Idealize.ShloMosaic.Lib.ValueIdx

noncomputable section

namespace Cert.SegmentGate

open Idealize.ShloMosaic Idealize.ShloMosaic.ValueIdx

/-- Column `128·k + l` of a 1024-wide row: lane `l` of segment `k`. -/
def lane (k : Fin 8) (l : Fin 128) : Fin 1024 :=
  ⟨k.val * 128 + l.val, by have := k.isLt; have := l.isLt; omega⟩

/-- The segment a column lies in: column `j` is in segment `j / 128`. -/
def seg (j : Fin 1024) : Fin 8 := ⟨j.val / 128, by have := j.isLt; omega⟩

/-- The maximum of segment `k` of a row: the fold of `max` over the segment's 128 lanes, from -∞ (the
    pattern `0xFF800000`). -/
def segMax (xr : Fin 1024 → EReal) (k : Fin 8) : EReal :=
  (Finset.univ : Finset (Fin 128)).fold max (Ideal.ofBits .f32 0xFF800000#32) (fun l => xr (lane k l))

/-- The affine map of the eight segment maxima: `∑ₖ max(segment k) · W[s, k] + b[s]`. -/
def logit (xr : Fin 1024 → EReal) (W : (⟨2, ![8, 8]⟩ : Shape).Idx → EReal) (b : (⟨1, ![8]⟩ : Shape).Idx → EReal)
    (s : Fin 8) : EReal :=
  (∑ k : Fin 8, segMax xr k * W (ix2 s k)) + b (ix1 s)

/-- One row of the result: entry `j` plus entry `j` times the logistic gate of its segment. -/
def rowOut (xr : Fin 1024 → EReal) (W : (⟨2, ![8, 8]⟩ : Shape).Idx → EReal) (b : (⟨1, ![8]⟩ : Shape).Idx → EReal)
    (j : Fin 1024) : EReal :=
  xr j + xr j * Ideal.logistic (logit xr W b (seg j))

/-- The whole result: the row function on each of the 65536 rows. -/
def G (x : (⟨2, ![65536, 1024]⟩ : Shape).Idx → EReal) (W : (⟨2, ![8, 8]⟩ : Shape).Idx → EReal)
    (b : (⟨1, ![8]⟩ : Shape).Idx → EReal) : (⟨2, ![65536, 1024]⟩ : Shape).Idx → EReal :=
  fun i => rowOut (fun j => x (ix2 (i 0) j)) W b (i 1)

/-- Entry (r, j) of the whole result is the row function of row `r` at column `j`, for any spelling of the
    entry's two coordinates and of the row. -/
theorem G_of_row (x : (⟨2, ![65536, 1024]⟩ : Shape).Idx → EReal) (W : (⟨2, ![8, 8]⟩ : Shape).Idx → EReal)
    (b : (⟨1, ![8]⟩ : Shape).Idx → EReal) (i : (⟨2, ![65536, 1024]⟩ : Shape).Idx) (r : Fin 65536) (j : Fin 1024)
    (hr : (i 0).val = r.val) (hj : (i 1).val = j.val) (xr : Fin 1024 → EReal) (hx : ∀ j', xr j' = x (ix2 r j')) :
    G x W b i = rowOut xr W b j := by
  obtain rfl : i = ix2 r j := funext fun a => Fin.ext (by
    match a with
    | ⟨0, _⟩ => exact hr
    | ⟨1, _⟩ => exact hj)
  obtain rfl : xr = fun j' => x (ix2 r j') := funext hx
  rfl

/-- The pattern `0x3F800000` is the number one. -/
theorem ofBits_one : Ideal.ofBits .f32 0x3F800000#32 = 1 := by
  simp [Ideal.ofBits, Ideal.ieee, -EReal.coe_mul]; norm_num

/-- The logistic function spelt out as `1 / (1 + e^(-z))` with the host's quotient, exponential and negation is
    the logistic function: on the extended reals the two are one definition. -/
theorem host_sigmoid (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  rw [Ideal.ofBits_def, ofBits_one]; rfl

/-- The position of a column inside its segment: column `j` is lane `j % 128`. -/
def lanePos (j : Fin 1024) : Fin 128 := ⟨j.val % 128, Nat.mod_lt _ (by decide)⟩

/-- A column is lane `j % 128` of segment `j / 128`. -/
theorem lane_seg (j : Fin 1024) : lane (seg j) (lanePos j) = j :=
  Fin.ext (by show j.val / 128 * 128 + j.val % 128 = j.val; omega)

/-- The segment of lane `l` of segment `k` is `k`. -/
theorem seg_lane (k : Fin 8) (l : Fin 128) : seg (lane k l) = k :=
  Fin.ext (by show (k.val * 128 + l.val) / 128 = k.val; have := l.isLt; omega)

end Cert.SegmentGate

end
-- ==== Proof.KernelBody.lean ====
/-
  The kernel body's stored value, read at an entry of its block: the segment-gate row function of that row of
  the input block.

  The body loads a [512, 1024] block of the input, the whole 8×8 weight matrix and the whole bias vector.  It views
  the block as [512, 8, 128], takes the maximum over the lanes, forms the products max[t, k] · W[i, k] on a
  [512, 8, 8] grid by two broadcasts, sums over k, adds the bias, applies the logistic function, broadcasts the
  [512, 8] gate back over the lanes, multiplies, views the product as [512, 1024] again and adds the block.
  Entry (p, j) of the stored value therefore reads row p of the block only.

  Each reshape and each broadcast is read at an index built from literal coordinates; the two reductions are read
  as a fold of max over the 128 lanes and a sum over the 8 segments.
-/
import proofs.«145779_j47124381172385_2_alg».proof.Proof.Gen.KernelIdeal.Skeleton
import proofs.«145779_j47124381172385_2_alg».proof.Proof.SegmentGate
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx Cert.SegmentGate

variable {α : Type}

/-! ## The reshapes and broadcasts, read at an index -/

/-- The [512, 8, 128] view of a [512, 1024] block: (p, k, l) is column `128·k + l` of row p. -/
theorem split_apply (x : S512x1024.Idx → α) (h : S512x1024.ShapeCasts S512x8x128) (p : Fin 512) (k : Fin 8) (l : Fin 128) :
    shapeCast S512x8x128 x h (ix3 p k l) = x (ix2 p (lane k l)) :=
  shapeCast_apply x h (ix3 p k l) (ix2 p (lane k l)) (by
    rw [Shape.rowMajor_val_two, Shape.rowMajor_val_three]
    show p.val * 1024 + (k.val * 128 + l.val) = (p.val * 8 + k.val) * 128 + l.val
    omega)

/-- The [512, 1024] view of a [512, 8, 128] value: column j of row p is (p, j / 128, j % 128). -/
theorem merge_apply (w : S512x8x128.Idx → α) (h : S512x8x128.ShapeCasts S512x1024) (p : Fin 512) (j : Fin 1024) :
    shapeCast S512x1024 w h (ix2 p j) = w (ix3 p (seg j) (lanePos j)) :=
  shapeCast_apply w h (ix2 p j) (ix3 p (seg j) (lanePos j)) (by
    rw [Shape.rowMajor_val_three, Shape.rowMajor_val_two]
    show (p.val * 8 + j.val / 128) * 128 + j.val % 128 = p.val * 1024 + j.val
    have := j.isLt
    omega)

/-- A [512, 8] value given a unit lane axis and broadcast over the 128 lanes: (p, s, l) reads (p, s). -/
theorem lanes_bcast_apply (g : S512x8.Idx → α) (h : S512x8.ShapeCasts S512x8x1) (h' : S512x8x1.Broadcasts S512x8x128)
    (p : Fin 512) (s : Fin 8) (l : Fin 128) :
    broadcastTo S512x8x128 (shapeCast S512x8x1 g h) h' (ix3 p s l) = g (ix2 p s) :=
  (broadcastTo_apply (shapeCast S512x8x1 g h) h' (ix3 p s l) (ix3 p s (0 : Fin 1)) (fun a => by
    match a with
    | ⟨0, _⟩ => show p.val = if (512 : Nat) = 1 then 0 else p.val; rw [if_neg (by decide)]
    | ⟨1, _⟩ => show s.val = if (8 : Nat) = 1 then 0 else s.val; rw [if_neg (by decide)]
    | ⟨2, _⟩ => show 0 = if (1 : Nat) = 1 then 0 else l.val; rw [if_pos rfl])).trans
  (shapeCast_apply g h (ix3 p s (0 : Fin 1)) (ix2 p s) (by
    rw [Shape.rowMajor_val_two, Shape.rowMajor_val_three]
    show p.val * 8 + s.val = (p.val * 8 + s.val) * 1 + 0
    omega))

/-- A [512, 8] value given a unit middle axis and broadcast over 8 rows: (p, s, k) reads (p, k). -/
theorem rows_bcast_apply (M : S512x8.Idx → α) (h : S512x8.ShapeCasts S512x1x8) (h' : S512x1x8.Broadcasts S512x8x8)
    (p : Fin 512) (s k : Fin 8) :
    broadcastTo S512x8x8 (shapeCast S512x1x8 M h) h' (ix3 p s k) = M (ix2 p k) :=
  (broadcastTo_apply (shapeCast S512x1x8 M h) h' (ix3 p s k) (ix3 p (0 : Fin 1) k) (fun a => by
    match a with
    | ⟨0, _⟩ => show p.val = if (512 : Nat) = 1 then 0 else p.val; rw [if_neg (by decide)]
    | ⟨1, _⟩ => show 0 = if (1 : Nat) = 1 then 0 else s.val; rw [if_pos rfl]
    | ⟨2, _⟩ => show k.val = if (8 : Nat) = 1 then 0 else k.val; rw [if_neg (by decide)])).trans
  (shapeCast_apply M h (ix3 p (0 : Fin 1) k) (ix2 p k) (by
    rw [Shape.rowMajor_val_two, Shape.rowMajor_val_three]
    show p.val * 8 + k.val = (p.val * 1 + 0) * 8 + k.val
    omega))

/-- The 8×8 matrix given a unit leading axis and broadcast over the 512 rows: (p, s, k) reads (s, k). -/
theorem matrix_bcast_apply (W : S8x8.Idx → α) (h : S8x8.ShapeCasts S1x8x8) (h' : S1x8x8.Broadcasts S512x8x8)
    (p : Fin 512) (s k : Fin 8) :
    broadcastTo S512x8x8 (shapeCast S1x8x8 W h) h' (ix3 p s k) = W (ix2 s k) :=
  (broadcastTo_apply (shapeCast S1x8x8 W h) h' (ix3 p s k) (ix3 (0 : Fin 1) s k) (fun a => by
    match a with
    | ⟨0, _⟩ => show 0 = if (1 : Nat) = 1 then 0 else p.val; rw [if_pos rfl]
    | ⟨1, _⟩ => show s.val = if (8 : Nat) = 1 then 0 else s.val; rw [if_neg (by decide)]
    | ⟨2, _⟩ => show k.val = if (8 : Nat) = 1 then 0 else k.val; rw [if_neg (by decide)])).trans
  (shapeCast_apply W h (ix3 (0 : Fin 1) s k) (ix2 s k) (by
    rw [Shape.rowMajor_val_two, Shape.rowMajor_val_three]
    show s.val * 8 + k.val = (0 * 8 + s.val) * 8 + k.val
    omega))

/-- The bias vector given a unit leading axis and broadcast over the 512 rows: (p, s) reads s. -/
theorem vector_bcast_apply (b : S8.Idx → α) (h : S8.ShapeCasts S1x8) (h' : S1x8.Broadcasts S512x8)
    (p : Fin 512) (s : Fin 8) :
    broadcastTo S512x8 (shapeCast S1x8 b h) h' (ix2 p s) = b (ix1 s) :=
  (broadcastTo_apply (shapeCast S1x8 b h) h' (ix2 p s) (ix2 (0 : Fin 1) s) (fun a => by
    match a with
    | ⟨0, _⟩ => show 0 = if (1 : Nat) = 1 then 0 else p.val; rw [if_pos rfl]
    | ⟨1, _⟩ => show s.val = if (8 : Nat) = 1 then 0 else s.val; rw [if_neg (by decide)])).trans
  (shapeCast_apply b h (ix2 (0 : Fin 1) s) (ix1 s) (by
    rw [Shape.rowMajor_val_two, Shape.rowMajor_val_one]
    show s.val = 0 * 8 + s.val
    omega))

/-! ## The two reductions, read at an index -/

/-- The maximum over the lanes at (p, k): the fold of `max` from -∞ over the 128 lanes of (p, k). -/
theorem lane_max_apply (v : FVec Ideal S512x8x128 .f32) (h : S512x8x128.Reduces [2] S512x8) (hφ : FKind.Formats .f32)
    (hacc : (0xFF800000#32 : BitVec 32) = 0xFF800000#32) (p : Fin 512) (k : Fin 8) :
    multiReduction .maximumf [2] S512x8 v 0xFF800000#32 h hφ hacc (ix2 p k)
      = (Finset.univ : Finset (Fin 128)).fold max (Ideal.ofBits .f32 0xFF800000#32) (fun l => v (ix3 p k l)) :=
  (Ideal.multiReduction_maximumf_single v 0xFF800000#32 h hφ hacc (ix2 p k)).trans
    (Finset.fold_congr fun l _ => congrArg v (funext fun a => Fin.ext (by
      match a with
      | ⟨0, _⟩ => rfl
      | ⟨1, _⟩ => rfl
      | ⟨2, _⟩ => rfl)))

/-- The sum over the last axis of a [512, 8, 8] value at (p, s): the sum over k of its entries (p, s, k). -/
theorem seg_sum_apply (v : FVec Ideal S512x8x8 .f32) (h : S512x8x8.Reduces [2] S512x8) (hφ : FKind.Formats .f32)
    (hacc : (0x00000000#32 : BitVec 32) = 0x00000000#32) (p : Fin 512) (s : Fin 8) :
    multiReduction .add [2] S512x8 v 0x00000000#32 h hφ hacc (ix2 p s) = ∑ k : Fin 8, v (ix3 p s k) :=
  (Ideal.multiReduction_add_single v 0x00000000#32 h hφ hacc (ix2 p s)).trans
    (Finset.sum_congr rfl fun k _ => congrArg v (funext fun a => Fin.ext (by
      match a with
      | ⟨0, _⟩ => rfl
      | ⟨1, _⟩ => rfl
      | ⟨2, _⟩ => rfl)))

/-- The logistic function of a vector, entry by entry. -/
theorem logistic_apply {s : Shape} {φ : FTy} (a : FVec Ideal s φ) (i : s.Idx) : logistic a i = Ideal.logistic (a i) := rfl

/-! ## The stored value -/

/-- Entry (p, j) of the value the body stores is the segment-gate row function of row p of the loaded block, at
    column j, with the loaded weight matrix and bias. -/
theorem pay_apply (v0 : Vec Ideal S512x1024 .f32) (v3 : Vec Ideal S8x8 .f32) (v4 : Vec Ideal S8 .f32)
    (p : Fin 512) (j : Fin 1024) :
    k0_pay1 (F := Ideal) v0 v3 v4 (ix2 p j) = rowOut (fun j' => v0 (ix2 p j')) v3 v4 j := by
  unfold k0_pay1
  dsimp only
  rw [addf_apply, merge_apply, mulf_apply, split_apply, lanes_bcast_apply, lane_seg, logistic_apply, addf_apply,
    seg_sum_apply, vector_bcast_apply]
  unfold rowOut logit
  refine congrArg (fun z => v0 (ix2 p j) + v0 (ix2 p j) * Ideal.logistic (z + v4 (ix1 (seg j))))
    (Finset.sum_congr rfl fun k _ => ?_)
  rw [mulf_apply, rows_bcast_apply, matrix_bcast_apply, lane_max_apply]
  unfold segMax
  refine congrArg (· * v3 (ix2 (seg j) k)) (Finset.fold_congr fun l _ => ?_)
  exact split_apply v0 _ p k l

end Cert.KernelIdeal.Body

end
-- ==== Proof.KernelArray.lean ====
/-
  From the blocks to the whole array: after the kernel's run its result array is the segment-gate function of
  its three argument arrays.

  The grid has 128 points.  Point t stages rows 512·t … 512·t + 511 of the input (all 1024 columns), the whole
  weight matrix and the whole bias vector, and writes back rows 512·t … 512·t + 511 of the result.  The value
  the body stores at (p, j) of its block is the row function of row p of the staged input block, which is row
  512·t + p of the input array — and that is entry (512·t + p, j) of the segment-gate function of the arrays.
  The 128 row blocks cover the result array: row r lies in block r / 512.
-/
import proofs.«145779_j47124381172385_2_alg».proof.Proof.Gen.KernelIdeal.Value
import proofs.«145779_j47124381172385_2_alg».proof.Proof.KernelBody
import Idealize.ShloMosaic.Lib.Pipeline.Value
import Idealize.ShloMosaic.Lib.Tactic

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Cert.SegmentGate
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The index maps over the 128 grid points: point t takes row block t of the input and of the result (their one
    column block), and block 0 — the whole — of the weight matrix and of the bias. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry y of the input block at point t is entry (512·t + y₀, y₁) of the input array. -/
theorem x_block_apply (c : Dev nD) (t : Fin cfg0.N) (y : S512x1024.Idx) (i : S65536x1024.Idx)
    (h0 : (i 0).val = t.val * 512 + (y 0).val) (h1 : (i 1).val = (y 1).val) :
    (iblk m c 0 t : Vec Ideal S512x1024 .f32) y = (V m c main_arg0 : S65536x1024.Idx → Elt Ideal .f32) i := by
  obtain ⟨e0, e1, -⟩ := block_index t
  unfold iblk
  rw [View.read_apply]
  show V m c main_arg0 _ = V m c main_arg0 _
  refine congrArg (V m c main_arg0) (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 1024 + 1 * (y 1).val = (i 1).val; rw [e1, h1]; omega

/-- The weight block at every point is the weight matrix. -/
theorem w_block (c : Dev nD) (t : Fin cfg0.N) :
    (iblk m c 1 t : Vec Ideal S8x8 .f32) = (V m c main_arg1 : S8x8.Idx → Elt Ideal .f32) := by
  obtain ⟨-, -, e0, e1, -⟩ := block_index t
  funext y
  unfold iblk
  rw [View.read_apply]
  show V m c main_arg1 _ = V m c main_arg1 y
  refine congrArg (V m c main_arg1) (funext fun a => Fin.ext ?_)
  match a with
  | ⟨0, _⟩ => show win0_1.index t (0 : Fin 2) * 8 + 1 * (y 0).val = (y 0).val; rw [e0]; omega
  | ⟨1, _⟩ => show win0_1.index t (1 : Fin 2) * 8 + 1 * (y 1).val = (y 1).val; rw [e1]; omega

/-- The bias block at every point is the bias vector. -/
theorem b_block (c : Dev nD) (t : Fin cfg0.N) :
    (iblk m c 2 t : Vec Ideal S8 .f32) = (V m c main_arg2 : S8.Idx → Elt Ideal .f32) := by
  obtain ⟨-, -, -, -, e0, -⟩ := block_index t
  funext y
  unfold iblk
  rw [View.read_apply]
  show V m c main_arg2 _ = V m c main_arg2 y
  refine congrArg (V m c main_arg2) (funext fun a => Fin.ext ?_)
  match a with
  | ⟨0, _⟩ => show win0_2.index t (0 : Fin 1) * 8 + 1 * (y 0).val = (y 0).val; rw [e0]; omega

/-- What the body stores at entry y of its block at point t is the segment-gate function of the argument arrays
    at the array entry the block's entry y is. -/
theorem block_entry (c : Dev nD) (t : Fin cfg0.N) (y : S512x1024.Idx) :
    k0_pay1 (F := Ideal) (iblk m c 0 t) (iblk m c 1 t) (iblk m c 2 t) y
      = G (V m c main_arg0) (V m c main_arg1) (V m c main_arg2) (((cfg0.win 3).blk t).view.emb y) := by
  obtain ⟨-, -, -, -, -, e0, e1⟩ := block_index t
  have ht : t.val < 128 := Nat.lt_of_lt_of_eq t.isLt (N_0 : cfg0.N = 128)
  obtain ⟨p, j, rfl⟩ : ∃ (p : Fin 512) (j : Fin 1024), y = ix2 p j := ⟨y 0, y 1, eq_ix2 y⟩
  rw [w_block m c t, b_block m c t]
  refine (Body.pay_apply (iblk m c 0 t) (V m c main_arg1) (V m c main_arg2) p j).trans ?_
  refine (G_of_row (V m c main_arg0) (V m c main_arg1) (V m c main_arg2) (((cfg0.win 3).blk t).view.emb (ix2 p j))
    ⟨t.val * 512 + p.val, by have := p.isLt; omega⟩ j ?_ ?_ (fun j' => iblk m c 0 t (ix2 p j')) ?_).symm
  · show win0_3.index t (0 : Fin 2) * 512 + 1 * p.val = t.val * 512 + p.val; rw [e0]; omega
  · show win0_3.index t (1 : Fin 2) * 1024 + 1 * j.val = j.val; rw [e1]; omega
  · intro j'
    exact x_block_apply m c t (ix2 p j') (ix2 ⟨t.val * 512 + p.val, by have := p.isLt; omega⟩ j') rfl rfl

/-- What point t writes back is block t of the segment-gate function of the argument arrays. -/
theorem flushed_eq (c : Dev nD) (t : Fin cfg0.N) :
    (dats m 0 c).flushed 3 t = ((cfg0.win 3).blk t).view.read (Elt Ideal)
      (G (V m c main_arg0) (V m c main_arg1) (V m c main_arg2)) := by
  rw [Value.flushed3]
  unfold out0_3
  rw [View.canon_unit_zero zero2]
  simp only [View.ld_unit_zero (S := S512x1024) zero2, View.ld_unit_zero (S := S8x8) zero2, View.ld_unit_zero (S := S8) zero1]
  funext y
  exact block_entry m c t y

/-- An entry of the result array is in point t's block iff each coordinate is in the block's range. -/
theorem mem_block (t : Fin cfg0.N) (i : S65536x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v0).slice (win0_3.rect t)).set ↔ _
  rw [View.set_slice_whole, Rect.mem_set_unit]
  exact Iff.rfl

/-- Every entry of the result array is written back by some point: row r by point r / 512. -/
theorem covered (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  have hlt : (i 0).val / 512 < cfg0.N := by rw [show cfg0.N = 128 from N_0]; omega
  obtain ⟨-, -, -, -, -, e0, e1⟩ := block_index ⟨(i 0).val / 512, hlt⟩
  refine ⟨⟨(i 0).val / 512, hlt⟩, flush0_3 _, ?_⟩
  rw [mem_block]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, hlt⟩ (1 : Fin 2) * 1024 ≤ (i 1).val
      ∧ (i 1).val < win0_3.index ⟨(i 0).val / 512, hlt⟩ (1 : Fin 2) * 1024 + 1024
    rw [e1]; omega

/-- After the run the result array is the segment-gate function of the argument arrays. -/
theorem final (c : Dev nD) :
    (dats m 0 c).arrAt 3 cfg0.N = G (V m c main_arg0) (V m c main_arg1) (V m c main_arg2) :=
  (dats m 0 c).arrAt_eq_of_cover 3 (G (V m c main_arg0) (V m c main_arg1) (V m c main_arg2))
    (fun t _ => flushed_eq m c t) covered

/-- The kernel's run: every weakly fair execution terminates with the result array at the segment-gate function of
    the three argument arrays as launched, and the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefIsGate.lean ====
/-
  The reference program computes the segment-gate function: its result array, read index by index through its
  twenty-one host operations, is `SegmentGate.G` of its three arguments.

  The reference reshapes the [65536, 1024] input to [65536, 8, 128], takes the maximum over the last axis,
  multiplies the [65536, 8] maxima by the transposed weight matrix, adds the bias, applies the logistic function
  spelt `1 / (1 + e^(-z))`, broadcasts the gate back over the 128 lanes, multiplies, reshapes back and adds the
  input.  Entry (r, j) of the result therefore reads row `r` of the input only: entry (r, j) itself, and the
  maxima of that row's eight segments.  The index arithmetic of the two reshapes is: (r, s, l) of the rank-3 view is
  column `128·s + l` of row `r`, and column `j` of row `r` is (r, j / 128, j % 128).
-/
import proofs.«145779_j47124381172385_2_alg».proof.Proof.Gen.ReferenceIdeal.Read
import proofs.«145779_j47124381172385_2_alg».proof.Proof.SegmentGate
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.SegmentGate

/-- The rank-3 view loses its last axis under the maximum. -/
theorem reduces_lanes : S65536x8x128.Reduces [2] S65536x8 := by decide

/-- The pooled stage at (r, k) is the maximum of segment `k` of row `r`: the host's reduction over the last axis
    is the fold of `max` from its initial value -∞ over the 128 lanes, and lane `l` of (r, k) in the rank-3 view is
    column `128·k + l` of row `r`. -/
theorem pooled_apply (x0 : (⟨S65536x1024, .f32⟩ : BufTy).Contents (Elt Ideal)) (r : Fin 65536) (k : Fin 8) :
    val_main_v1 (F := Ideal) x0 (ix2 r k) = segMax (fun j => x0 (ix2 r j)) k := by
  unfold val_main_v1
  rw [Host.reduce_eq_fold_single FloatOps.maximumf _ _ reducesTo_S65536x8x128_S65536x8_d2 reduces_lanes h_S_ (ix2 r k)]
  show (Finset.univ : Finset (Fin 128)).fold max (Ideal.ofBits .f32 0xFF800000#32)
      (fun l => val_main_v0 (F := Ideal) x0 (reduces_lanes.lift (ix2 r k) l)) = _
  unfold segMax
  refine Finset.fold_congr (fun l _ => ?_)
  rw [val_main_v0_apply]
  refine congrArg x0 (funext fun a => Fin.ext ?_)
  have hr := r.isLt; have hk := k.isLt; have hl : l.val < 128 := l.isLt
  match a with
  | ⟨0, _⟩ => show ((r.val * 8 + k.val) * 128 + l.val) / 1024 = r.val; omega
  | ⟨1, _⟩ => show ((r.val * 8 + k.val) * 128 + l.val) % 1024 = k.val * 128 + l.val; omega

/-- The reference's result is the segment-gate function of its arguments. -/
theorem result_eq (x0 : (⟨S65536x1024, .f32⟩ : BufTy).Contents (Elt Ideal)) (W : (⟨S8x8, .f32⟩ : BufTy).Contents (Elt Ideal))
    (b : (⟨S8, .f32⟩ : BufTy).Contents (Elt Ideal)) :
    val_main_v17 (F := Ideal) x0 W b = G x0 W b := by
  funext i
  obtain ⟨r, j, rfl⟩ : ∃ (r : Fin 65536) (j : Fin 1024), i = ix2 r j := ⟨i 0, i 1, eq_ix2 i⟩
  have hr := r.isLt; have hj := j.isLt
  -- column j of row r, through the reshape to rank 3 and back, is column j of row r
  have e0 : idx_main_v0 (idx_main_v16 (ix2 r j)) = ix2 r j := funext fun a => Fin.ext (by
    match a with
    | ⟨0, _⟩ => show (((r.val * 1024 + j.val) / 1024 * 8 + (r.val * 1024 + j.val) / 128 % 8) * 128 + (r.val * 1024 + j.val) % 128) / 1024 = r.val; omega
    | ⟨1, _⟩ => show (((r.val * 1024 + j.val) / 1024 * 8 + (r.val * 1024 + j.val) / 128 % 8) * 128 + (r.val * 1024 + j.val) % 128) % 1024 = j.val; omega)
  -- the gate read at (r, j) is the gate of row r and segment j / 128
  have e1 : idx_main_v13 (idx_main_v14 (idx_main_v16 (ix2 r j))) = ix2 r (seg j) := funext fun a => Fin.ext (by
    match a with
    | ⟨0, _⟩ => show (r.val * 1024 + j.val) / 1024 = r.val; omega
    | ⟨1, _⟩ => show (r.val * 1024 + j.val) / 128 % 8 = j.val / 128; omega)
  have e2 : idx_main_v4 (idx_main_v5 (ix2 r (seg j))) = ix1 (seg j) := funext fun a => Fin.ext (by
    match a with
    | ⟨0, _⟩ => rfl)
  have e3 : ∀ k : Fin 8, lidx_main_v3 (ix2 r (seg j)) k = ix2 r k := fun k => funext fun a => Fin.ext (by
    match a with
    | ⟨0, _⟩ => rfl
    | ⟨1, _⟩ => rfl)
  -- the transposed weight at (k, s) is the weight at (s, k)
  have e4 : ∀ k : Fin 8, idx_main_v2 (ridx_main_v3 (ix2 r (seg j)) k) = ix2 (seg j) k := fun k => funext fun a => Fin.ext (by
    match a with
    | ⟨0, _⟩ => rfl
    | ⟨1, _⟩ => rfl)
  rw [val_main_v17_apply, val_main_v16_apply, val_main_v15_apply, val_main_v0_apply, val_main_v14_apply,
    val_main_v13_apply, val_main_v12_apply, val_main_v11_apply, val_main_cst_1_apply, val_main_v10_apply,
    val_main_v9_apply, val_main_cst_0_apply, val_main_v8_apply, val_main_v7_apply, val_main_v6_apply,
    val_main_v3_apply, val_main_v5_apply, val_main_v4_apply, e0, e1, host_sigmoid, e2]
  simp only [e3, val_main_v2_apply, e4, pooled_apply]
  rfl

end Cert.ReferenceIdeal.RefValue

end
-- ==== Proof.lean ====
/-
  The certificate's claims, assembled.

  Both programs compute, for every row of a [65536, 1024] array, the same function of that row, an 8×8 weight
  matrix and a bias vector (SegmentGate.lean): pool each of the row's eight 128-lane segments to its maximum, pass the
  eight maxima through the affine map `z[s] = ∑ₖ max[k] · W[s, k] + b[s]`, and replace each entry by itself plus
  itself times the logistic function of its segment's `z`.  The kernel does this block of 512 rows by block, forming
  the products on a [512, 8, 8] grid and summing over the last axis, and applies the logistic function as one
  operation; the reference does it on the whole array with a matrix product against the transposed weight matrix and
  spells the logistic function as `1 / (1 + e^(-z))`.  On the extended reals a sum over k of products is the same
  sum whichever way it is tiled, and the two spellings of the logistic function are one definition, so the two
  results are equal entry by entry without any appeal to finiteness of the inputs.

  The three frame claims are the generated frame runs (the reference's is its run with the result dropped); the
  idealization rewrote nothing, so its claim is trivial; the equivalence sets the kernel's run (KernelArray.lean: the
  result array is the segment-gate function of the arguments) beside the reference's (RefIsGate.lean: so is its
  result) on memories that agree on the arguments.
-/
import proofs.«145779_j47124381172385_2_alg».proof.Defs
import proofs.«145779_j47124381172385_2_alg».proof.Proof.Gen.Kernel
import proofs.«145779_j47124381172385_2_alg».proof.Proof.Gen.Kernel.Skeleton
import proofs.«145779_j47124381172385_2_alg».proof.Proof.Gen.Kernel.Launch
import proofs.«145779_j47124381172385_2_alg».proof.Proof.Gen.Kernel.Points
import proofs.«145779_j47124381172385_2_alg».proof.Proof.Gen.Kernel.Frame
import proofs.«145779_j47124381172385_2_alg».proof.Proof.Gen.KernelIdeal
import proofs.«145779_j47124381172385_2_alg».proof.Proof.Gen.KernelIdeal.Skeleton
import proofs.«145779_j47124381172385_2_alg».proof.Proof.Gen.KernelIdeal.Launch
import proofs.«145779_j47124381172385_2_alg».proof.Proof.Gen.KernelIdeal.Points
import proofs.«145779_j47124381172385_2_alg».proof.Proof.Gen.KernelIdeal.Frame
import proofs.«145779_j47124381172385_2_alg».proof.Proof.Gen.ReferenceIdeal
import proofs.«145779_j47124381172385_2_alg».proof.Proof.Gen.Pre_finite_inputs
import proofs.«145779_j47124381172385_2_alg».proof.Proof.Gen.KernelIdeal.Value
import proofs.«145779_j47124381172385_2_alg».proof.Proof.Gen.ReferenceIdeal.Run
import proofs.«145779_j47124381172385_2_alg».proof.Proof.Gen.ReferenceIdeal.Read
import proofs.«145779_j47124381172385_2_alg».proof.Proof.KernelArray
import proofs.«145779_j47124381172385_2_alg».proof.Proof.RefIsGate
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the three arguments, the kernel's result array and the reference's are both the
    segment-gate function of those arguments. -/
theorem algebraic : Cert.algebraic_KernelIdeal_ReferenceIdeal := by
  intro m ρ m' ρ' _ hagree
  refine ⟨fun c => Cert.SegmentGate.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v17_eq (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))).trans
    (Cert.ReferenceIdeal.RefValue.result_eq _ _ _)).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
